-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : IVec S1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg3 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  main_v22

def fn {F : FTy → Type} [FloatOps F] (main_arg0 : FVec F S100000x64 .f32) (main_arg1 : FVec F S1600000 .f32) (main_arg2 : IVec S1600000 32) (main_arg3 : IVec S1600000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S50000x128 : Shape := ⟨2, ![50000, 128]⟩
abbrev S_ : Shape := ⟨0, ![]⟩
abbrev S64x128 : Shape := ⟨2, ![64, 128]⟩
abbrev S128x128 : Shape := ⟨2, ![128, 128]⟩
abbrev S5000x128 : Shape := ⟨2, ![5000, 128]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 40
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S50000x128, .f32⟩
  | .hbm, ⟨7, _⟩ => ⟨S_, .f32⟩
  | .hbm, ⟨8, _⟩ => ⟨S64x64, .f32⟩
  | .hbm, ⟨9, _⟩ => ⟨S64x128, .f32⟩
  | .hbm, ⟨10, _⟩ => ⟨S64x128, .f32⟩
  | .hbm, ⟨11, _⟩ => ⟨S128x128, .f32⟩
  | .hbm, ⟨12, _⟩ => ⟨S50000x128, .f32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x1, .f32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S50000x128_S100000x64 : S50000x128.ShapeCasts S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x128_S128x128_S5000x128_1_0_0_1_n_n_wf : DotDims.WF S5000x128 S128x128 S5000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelTail.lean ====
/-
  What the kernel's program computes after its matrix product.

  The lines after the product are host operations: the product, held as 50000 packed rows of 128 lanes, is read
  back as 100000 node rows of 64 features; each edge gathers its source node's row (a negative source index
  counted from the end), scales it by the edge weight, and the scaled rows are added into the all-zero table at
  the edges' destination rows (a negative destination index counted from the end too); the bias row is added to
  every node. `tail` is that composite as ONE function of the product array and the four arguments it reads, and
  `tail_value` says the program's result buffer holds it: the product array is what the grid left in the output
  window's array, and the arguments are as launched because nothing before writes them.
-/
import proofs.«152450_j37709812859403_2_alg».proof.Proof.Gen.KernelIdeal.Frame
import Idealize.ShloMosaic.Lib.StableHlo.Run
import Idealize.ShloMosaic.PureOps.Ideal

noncomputable section

namespace Cert.KernelIdeal.Tail

open Cert.KernelIdeal Cert.KernelIdeal.Gen Idealize.ShloMosaic Idealize.ShloMosaic.TcCoe Idealize.SL.Sem
open Idealize.ShloMosaic.StableHlo

/-- The product's 50000 packed rows read back as 100000 node rows. -/
def nodeRows (y : FVec Ideal S50000x128 .f32) : FVec Ideal S100000x64 .f32 :=
  fun i => shapeCast S100000x64 y shapeCasts_S50000x128_S100000x64 i

/-- An index vector, negative entries counted from the end, as a column of start indices. -/
def wrappedCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The update rows: each edge's gathered node row scaled by its weight. -/
def updates (Y : FVec Ideal S100000x64 .f32) (x1 : FVec Ideal S1600000 .f32) (x2 : IVec S1600000 32) :
    FVec Ideal S1600000x64 .f32 :=
  mulf (Host.gather gather_S100000x64_S1600000x1_S1600000x64_1_0_n_n_0_1_164 Y (wrappedCol x2))
    (broadcastInDim S1600000x64 ![0, 1] bcast_S1600000x1_S1600000x64_0_1
      (broadcastInDim S1600000x1 ![0] bcast_S1600000_S1600000x1_0 x1))

/-- The all-zero table the updates are added into. -/
def zeros : FVec Ideal S100000x64 .f32 :=
  broadcastInDim S100000x64 ![] bcast_S_S100000x64 (constant S_ .f32 0x00000000#32)

/-- The bias as a row repeated over the nodes. -/
def biasRows (x5 : FVec Ideal S64 .f32) : FVec Ideal S100000x64 .f32 :=
  broadcastInDim S100000x64 ![0, 1] bcast_S1x64_S100000x64_0_1 (broadcastInDim S1x64 ![1] bcast_S64_S1x64_1 x5)

/-- The host operations after the product, as one function. -/
def tail (y : FVec Ideal S50000x128 .f32) (x1 : FVec Ideal S1600000 .f32) (x2 x3 : IVec S1600000 32)
    (x5 : FVec Ideal S64 .f32) : FVec Ideal S100000x64 .f32 :=
  addf
    (Host.scatterAdd scatter_S100000x64_S1600000x1_S1600000x64_1_0_0_1 zeros (wrappedCol x3)
      (updates (nodeRows y) x1 x2))
    (biasRows x5)

variable (m : (ℓ : Loc nD τ sig) → Buf (Elt Ideal) ℓ)

set_option maxHeartbeats 2000000 in
/-- The program's result buffer after the run: the tail of the output window's final array and the arguments as launched. -/
theorem tail_value (c : Dev nD) :
    Pipeline.afterTail₀ cfgs (dats (F := Ideal) m) 0 (V0 m) [hostOps1] c main_v27
      = tail ((dats (F := Ideal) m 0 c).arrAt 2 cfg0.N) (m ((c : Thread nD τ).loc main_arg1))
          (m ((c : Thread nD τ).loc main_arg2)) (m ((c : Thread nD τ).loc main_arg3)) (m ((c : Thread nD τ).loc main_arg5)) := by
  have h1 : Pipeline.withArrays (cfgs 0).spec c (V0 m c) (fun w => (dats (F := Ideal) m 0 c).arrAt w (cfgs 0).N)
      (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  have h2 : Pipeline.withArrays (cfgs 0).spec c (V0 m c) (fun w => (dats (F := Ideal) m 0 c).arrAt w (cfgs 0).N)
      (Proc.devRef .tc main_arg2) = m ((c : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats (F := Ideal) m 0 c).arrAt w (cfgs 0).N)
      (Proc.devRef .tc main_arg3) = m ((c : Thread nD τ).loc main_arg3) :=
    (Pipeline.withArrays_of_ne _ c (V0 m c) _ main_arg3 (by exact (by decide : ∀ w, Pipeline.arrRef spec0 w ≠ main_arg3))).trans
      (V_main_arg3 m c)
  have h5 : Pipeline.withArrays (cfgs 0).spec c (V0 m c) (fun w => (dats (F := Ideal) m 0 c).arrAt w (cfgs 0).N)
      (Proc.devRef .tc main_arg5) = m ((c : Thread nD τ).loc main_arg5) :=
    (Pipeline.withArrays_of_ne _ c (V0 m c) _ main_arg5 (by exact (by decide : ∀ w, Pipeline.arrRef spec0 w ≠ main_arg5))).trans
      (V_main_arg5 m c)
  have hy : Pipeline.withArrays (cfgs 0).spec c (V0 m c) (fun w => (dats (F := Ideal) m 0 c).arrAt w (cfgs 0).N)
      (Proc.devRef .tc main_v5) = (dats (F := Ideal) m 0 c).arrAt 2 cfg0.N :=
    Pipeline.withArrays_arr spec0 launch0.win.arr_inj c _ _ 2
  unfold Pipeline.afterTail₀
  simp only [List.flatten_cons, List.flatten_nil, List.append_nil]
  after_results_simp
  rw [h1, h2, h3, h5, hy]
  rfl

end Cert.KernelIdeal.Tail

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«152450_j37709812859403_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.LibSumSupport.lean ====
/-
  Finite sums whose terms vanish outside a prefix or outside one block.

  A sum over `Fin N` of terms that are zero from position `n` on is the sum of the first `n` terms; a sum over
  `Fin (Q * B)`, read as `Q` consecutive blocks of `B` places, of terms that are zero outside block `p` is the
  sum over that block. Both hold in any additive commutative monoid (no subtraction, no finiteness), so they
  serve sums of extended reals: a matrix product against a zero-padded or a block-diagonal matrix loses its
  vanishing terms this way. Imports only Mathlib.
-/
import Mathlib.Algebra.BigOperators.Fin
import Mathlib.Algebra.BigOperators.Group.Finset.Basic
import Mathlib.Logic.Equiv.Fin.Basic

namespace Cert.Lib.SumSupport

open scoped BigOperators

variable {M : Type*} [AddCommMonoid M]

/-- Terms that vanish from position `n` on: the sum over `Fin N` is the sum of the first `n` terms. -/
theorem sum_prefix {n N : ℕ} (h : n ≤ N) (f : Fin N → M) (hz : ∀ k : Fin N, n ≤ k.val → f k = 0) :
    ∑ k, f k = ∑ k : Fin n, f (Fin.castLE h k) := by
  rw [show ∑ k : Fin n, f (Fin.castLE h k) = ∑ x ∈ Finset.univ.map (Fin.castLEEmb h), f x from
    (Finset.sum_map Finset.univ (Fin.castLEEmb h) f).symm]
  refine (Finset.sum_subset (Finset.subset_univ _) fun x _ hx => hz x ?_).symm
  by_contra hlt
  exact hx (Finset.mem_map.2 ⟨⟨x.val, Nat.lt_of_not_le hlt⟩, Finset.mem_univ _, Fin.ext rfl⟩)

/-- Place `b` of block `p` among `Q` consecutive blocks of `B` places: position `p * B + b`. -/
def blockIdx {N Q B : ℕ} (hN : N = Q * B) (p : ℕ) (hp : p < Q) (b : Fin B) : Fin N :=
  ⟨p * B + b.val, by
    subst hN; calc p * B + b.val < p * B + B := Nat.add_lt_add_left b.isLt _
      _ = (p + 1) * B := (Nat.succ_mul p B).symm
      _ ≤ Q * B := Nat.mul_le_mul_right B hp⟩

theorem blockIdx_val {N Q B : ℕ} (hN : N = Q * B) (p : ℕ) (hp : p < Q) (b : Fin B) :
    (blockIdx hN p hp b).val = p * B + b.val := rfl

/-- Terms that vanish outside block `p` of `Q` consecutive blocks of `B` places: the sum over all `Q * B`
    places is the sum over the block's `B` places `p * B + b`. -/
theorem sum_block {N Q B : ℕ} (hN : N = Q * B) (f : Fin N → M) (p : ℕ) (hp : p < Q)
    (hz : ∀ k : Fin N, k.val / B ≠ p → f k = 0) :
    ∑ k, f k = ∑ b : Fin B, f (blockIdx hN p hp b) := by
  subst hN
  rw [← Equiv.sum_comp finProdFinEquiv f, Fintype.sum_prod_type]
  rw [Finset.sum_eq_single (⟨p, hp⟩ : Fin Q)]
  · refine Finset.sum_congr rfl fun b _ => congrArg f (Fin.ext ?_)
    show b.val + B * p = p * B + b.val
    rw [Nat.mul_comm, Nat.add_comm]
  · intro q _ hq
    refine Finset.sum_eq_zero fun b _ => hz _ ?_
    show (b.val + B * q.val) / B ≠ p
    have hB : 0 < B := Nat.pos_of_ne_zero fun h0 => by subst h0; exact b.elim0
    rw [Nat.add_mul_div_left _ _ hB, Nat.div_eq_of_lt b.isLt, Nat.zero_add]
    exact fun e => hq (Fin.ext e)
  · intro hp'; exact absurd (Finset.mem_univ _) hp'

end Cert.Lib.SumSupport
-- ==== Proof.PackedProduct.lean ====
/-
  Two node rows packed side by side, multiplied by the block-diagonal copy of the weight.

  The kernel lays node rows `2P` and `2P + 1` (64 features each) side by side as packed row `P` (128 lanes) and
  multiplies by `diag(W, W)`, the 128 × 128 matrix with `W` on its two diagonal 64 × 64 blocks and zero elsewhere.
  Node `n`'s output feature `d` sits at packed row `n / 2`, lane `(n % 2) · 64 + d`. In the sum over the 128 lanes
  every term outside lane block `n % 2` has a zero factor from the matrix, and a product with zero is zero on the
  extended reals whatever the other factor; what remains is the sum over the 64 lanes of node `n`'s own row against
  column `d` of `W`: the packed product IS the plain product `feat · W`, with no finiteness needed.
-/
import proofs.«152450_j37709812859403_2_alg».proof.Proof.LibMatProd
import proofs.«152450_j37709812859403_2_alg».proof.Proof.LibSumSupport

noncomputable section

open scoped BigOperators

namespace Cert.Packed

open Idealize.ShloMosaic Idealize.ShloMosaic.ValueIdx Cert.Lib.MatProd

/-- The packed product at node `n`'s place is `∑ j, feat (n, j) · W (j, d)`. `l` is the packed feature array (`hl`),
    `r` the block-diagonal matrix (`hr`). -/
theorem packed_prod_apply
    (feat : (⟨2, ![100000, 64]⟩ : Shape).Idx → EReal) (W : (⟨2, ![64, 64]⟩ : Shape).Idx → EReal)
    (l : (⟨2, ![50000, 128]⟩ : Shape).Idx → EReal) (r : (⟨2, ![128, 128]⟩ : Shape).Idx → EReal)
    (hl : ∀ (P : Fin 50000) (k : Fin 128),
      l (ix2 P k) = feat (ix2 ⟨2 * P.val + k.val / 64, by omega⟩ ⟨k.val % 64, Nat.mod_lt _ (by decide)⟩))
    (hr : ∀ (k q : Fin 128), r (ix2 k q)
      = if k.val / 64 = q.val / 64 then W (ix2 ⟨k.val % 64, Nat.mod_lt _ (by decide)⟩ ⟨q.val % 64, Nat.mod_lt _ (by decide)⟩) else 0)
    (n : Fin 100000) (d : Fin 64) :
    prod l r (ix2 (⟨n.val / 2, by omega⟩ : Fin 50000) (⟨n.val % 2 * 64 + d.val, by omega⟩ : Fin 128))
      = ∑ j : Fin 64, feat (ix2 n j) * W (ix2 j d) := by
  rw [prod_apply]
  rw [Cert.Lib.SumSupport.sum_block (show 128 = 2 * 64 from rfl) _ (n.val % 2) (Nat.mod_lt _ (by decide))]
  · refine Finset.sum_congr rfl fun b _ => ?_
    have hb : (Cert.Lib.SumSupport.blockIdx (show 128 = 2 * 64 from rfl) (n.val % 2) (Nat.mod_lt _ (by decide)) b).val
        = n.val % 2 * 64 + b.val := rfl
    rw [hl, hr, if_pos (by rw [hb]; show (n.val % 2 * 64 + b.val) / 64 = (n.val % 2 * 64 + d.val) / 64; omega)]
    congr 2
    · funext a
      refine Fin.ext ?_
      match a with
      | ⟨0, _⟩ => show 2 * (n.val / 2) + (Cert.Lib.SumSupport.blockIdx _ _ _ b).val / 64 = n.val; rw [hb]; omega
      | ⟨1, _⟩ => show (Cert.Lib.SumSupport.blockIdx _ _ _ b).val % 64 = b.val; rw [hb]; omega
    · funext a
      refine Fin.ext ?_
      match a with
      | ⟨0, _⟩ => show (Cert.Lib.SumSupport.blockIdx _ _ _ b).val % 64 = b.val; rw [hb]; omega
      | ⟨1, _⟩ => show (n.val % 2 * 64 + d.val) % 64 = d.val; omega
  · intro k hk
    rw [hr, if_neg (by show ¬ k.val / 64 = (n.val % 2 * 64 + d.val) / 64; omega), mul_zero]

end Cert.Packed

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.LibSegLinear.lean ====
/-
  A linear map commutes with a weighted segment sum — for finite data.

  Over finitely many edges `e` and features `k`, with an indicator `p e` (edge `e` lands in the segment), a row
  `A e k` per edge, an edge weight `w e` and one column `W k` of a matrix:

      ∑_e [p e] (∑_k A e k · W k) · w e  =  ∑_k (∑_e [p e] A e k · w e) · W k.

  Applying the matrix before the gather-scale-scatter or after it gives the same entry. On the extended reals the
  identity needs every `A e k`, `w e`, `W k` to be a real number: it distributes a product over a sum and exchanges
  two sums, which fail at infinities (`seg_linear`; over ℝ it is `seg_linear_real`). Imports only Mathlib.
-/
import Mathlib.Data.EReal.Operations
import Mathlib.Algebra.BigOperators.Ring.Finset
import Mathlib.Algebra.BigOperators.Group.Finset.Sigma
import Mathlib.Tactic.Ring

open scoped BigOperators

namespace Cert.Lib.SegLinear

variable {ι κ : Type*} [Fintype ι] [Fintype κ]

/-- The law over the reals. -/
theorem seg_linear_real (p : ι → Prop) [DecidablePred p] (a : ι → κ → ℝ) (w : ι → ℝ) (W : κ → ℝ) :
    ∑ e, (if p e then (∑ k, a e k * W k) * w e else 0) = ∑ k, (∑ e, if p e then a e k * w e else 0) * W k := by
  simp only [Finset.sum_mul]
  rw [Finset.sum_comm]
  refine Finset.sum_congr rfl fun e _ => ?_
  by_cases h : p e
  · simp only [h, if_true]
    exact Finset.sum_congr rfl fun k _ => by ring
  · simp only [h, if_false, zero_mul, Finset.sum_const_zero]

/-- The inclusion of the reals in the extended reals carries a finite sum to the sum. -/
theorem coe_sum {α : Type*} (s : Finset α) (f : α → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- … and an indicator to the indicator. -/
theorem coe_ite (p : Prop) [Decidable p] (x : ℝ) : ((if p then x else 0 : ℝ) : EReal) = if p then (x : EReal) else 0 := by
  split_ifs <;> simp

/-- THE LAW on the extended reals, for data that are real numbers. -/
theorem seg_linear (p : ι → Prop) [DecidablePred p] (A : ι → κ → EReal) (w : ι → EReal) (W : κ → EReal)
    (hA : ∀ e k, ∃ r : ℝ, A e k = (r : EReal)) (hw : ∀ e, ∃ r : ℝ, w e = (r : EReal))
    (hW : ∀ k, ∃ r : ℝ, W k = (r : EReal)) :
    ∑ e, (if p e then (∑ k, A e k * W k) * w e else 0) = ∑ k, (∑ e, if p e then A e k * w e else 0) * W k := by
  choose a ha using hA
  choose w' hw using hw
  choose W' hW using hW
  have L : ∀ e, (if p e then (∑ k, A e k * W k) * w e else 0)
      = ((if p e then (∑ k, a e k * W' k) * w' e else 0 : ℝ) : EReal) := by
    intro e
    rw [coe_ite, EReal.coe_mul, coe_sum]
    simp only [EReal.coe_mul, ha, hw, hW]
  have R : ∀ k, (∑ e, if p e then A e k * w e else 0) * W k
      = (((∑ e, if p e then a e k * w' e else 0) * W' k : ℝ) : EReal) := by
    intro k
    rw [EReal.coe_mul, coe_sum]
    simp only [coe_ite, EReal.coe_mul, ha, hw, hW]
  simp only [L, R, ← coe_sum]
  exact congrArg _ (seg_linear_real p a w' W')

end Cert.Lib.SegLinear
-- ==== Proof.SegSpec.lean ====
/-
  The two sides of the claim, index by index, and the law between them.

  A graph layer over 100000 nodes with 64 features and 1600000 weighted edges: edge `e` reads node `srcRow e`
  (its source index, a negative one counted from the end, then clamped into the table), scales the row by `w e`
  and adds it to node `dst e`; a 64 × 64 matrix `W` and a bias `b` finish the layer.

  * `kernelForm`: apply `W` to every node's row FIRST, then gather, scale and add:
        out (n, d) = (0 + ∑_e [dst e = n] (∑_k feat (srcRow e, k) · W (k, d)) · w e) + b d
  * `refForm`: gather, scale and add the rows, THEN apply `W`:
        out (n, d) = (∑_k (0 + ∑_e [dst e = n] feat (srcRow e, k) · w e) · W (k, d)) + b d

  `[dst e = n]` compares edge `e`'s destination word, read as a signed integer, with `n`: an edge whose word is
  no node contributes nowhere. For features, weights and matrix entries that are real numbers the two forms agree
  (`forms_eq`: a linear map commutes with a weighted segment sum). The zero is the word `0x00000000` read as a
  float. Also here: the index arrays' small layout steps read at an index (a vector as one column, a column
  repeated over the lanes, a scalar spread over an array, the bias row), for any witness of the shape condition.
-/
import Idealize.ShloMosaic.PureOps.Ideal
import Idealize.ShloMosaic.PureOps.Ideal.Laws
import Idealize.ShloMosaic.Lib.ValueIdx
import Idealize.ShloMosaic.Lib.Pipeline.Value
import proofs.«152450_j37709812859403_2_alg».proof.Proof.LibRowGatherScatter
import proofs.«152450_j37709812859403_2_alg».proof.Proof.LibSegLinear

noncomputable section

open scoped BigOperators

namespace Cert.Seg

open Idealize.ShloMosaic Idealize.ShloMosaic.ValueIdx Cert.Lib.RowGatherScatter

abbrev SN : Shape := ⟨2, ![100000, 64]⟩
abbrev SE : Shape := ⟨1, ![1600000]⟩
abbrev SE1 : Shape := ⟨2, ![1600000, 1]⟩
abbrev SEC : Shape := ⟨2, ![1600000, 64]⟩
abbrev SW : Shape := ⟨2, ![64, 64]⟩
abbrev SB : Shape := ⟨1, ![64]⟩
abbrev SB1 : Shape := ⟨2, ![1, 64]⟩
abbrev S0 : Shape := ⟨0, ![]⟩

/-- An index vector as the one column of an `[E, 1]` array of start indices. -/
def col (v : IVec SE 32) : IVec SE1 32 := fun i => v (ix1 (i 0))

/-- jnp's reading of a negative index: counted from the end of the 100000 rows. -/
def wrap (v : IVec SE 32) : IVec SE 32 :=
  fun i => Scalar.select (IntOp.cmpi .slt (v i) 0#32) (IntOp.addi (v i) 100000#32) (v i)

/-- An index vector with no negative entry is its own wrapped reading. -/
theorem wrap_eq (v : IVec SE 32) (h : ∀ i, IntOp.cmpi .slt (v i) 0#32 = 0#1) : wrap v = v := by
  funext i
  unfold wrap
  rw [h i, select_zero]

/-- The node row edge `e` reads. -/
def srcRow (src : IVec SE 32) (e : Fin 1600000) : Fin 100000 :=
  rowOf (N := 100000) (by decide) (col (wrap src)) e

/-- The matrix first, then the weighted segment sum. -/
def kernelForm (feat : SN.Idx → EReal) (W : SW.Idx → EReal) (w : SE.Idx → EReal) (b : SB.Idx → EReal)
    (src dst : IVec SE 32) (n : Fin 100000) (d : Fin 64) : EReal :=
  (Ideal.ofBits .f32 0x00000000#32 + ∑ e : Fin 1600000,
      if (col dst (startAt e)).toInt = (n.val : ℤ)
        then (∑ k : Fin 64, feat (ix2 (srcRow src e) k) * W (ix2 k d)) * w (ix1 e) else 0)
    + b (ix1 d)

/-- The weighted segment sum first, then the matrix. -/
def refForm (feat : SN.Idx → EReal) (W : SW.Idx → EReal) (w : SE.Idx → EReal) (b : SB.Idx → EReal)
    (src dst : IVec SE 32) (n : Fin 100000) (d : Fin 64) : EReal :=
  (∑ k : Fin 64, (Ideal.ofBits .f32 0x00000000#32 + ∑ e : Fin 1600000,
      if (col dst (startAt e)).toInt = (n.val : ℤ) then feat (ix2 (srcRow src e) k) * w (ix1 e) else 0) * W (ix2 k d))
    + b (ix1 d)

/-- THE LAW: for real features, weights and matrix entries the two forms are one number. -/
theorem forms_eq (feat : SN.Idx → EReal) (W : SW.Idx → EReal) (w : SE.Idx → EReal) (b : SB.Idx → EReal)
    (src dst : IVec SE 32) (hf : ∀ i, ∃ r : ℝ, feat i = (r : EReal)) (hw : ∀ i, ∃ r : ℝ, w i = (r : EReal))
    (hW : ∀ i, ∃ r : ℝ, W i = (r : EReal)) (n : Fin 100000) (d : Fin 64) :
    kernelForm feat W w b src dst n d = refForm feat W w b src dst n d := by
  unfold kernelForm refForm
  rw [Ideal.ofBits_zero_f32]
  simp only [zero_add]
  rw [Cert.Lib.SegLinear.seg_linear (fun e : Fin 1600000 => (col dst (startAt e)).toInt = (n.val : ℤ))
    (fun e k => feat (ix2 (srcRow src e) k)) (fun e => w (ix1 e)) (fun k : Fin 64 => W (ix2 k d))
    (fun e k => hf _) (fun e => hw _) (fun k => hW _)]

/-! ## Layout steps read at an index -/

section Layout
variable {α : Type}

/-- A vector `[E]` as the one column of `[E, 1]`. -/
theorem bcast_col_apply (h : SE.BroadcastsInDim SE1 (![0] : Fin 1 → Fin SE1.rank)) (v : SE.Idx → α) (i : SE1.Idx) :
    broadcastInDim SE1 ![0] h v i = v (ix1 (i 0)) :=
  broadcastInDim_apply _ h v i (ix1 (i 0)) (fun a => match a with
    | ⟨0, _⟩ => by show (i 0).val = if (1600000 : Nat) = 1 then 0 else (i 0).val; rw [if_neg (by decide)])

/-- The column `[E, 1]` repeated over the 64 lanes. -/
theorem bcast_lanes_apply (h : SE1.BroadcastsInDim SEC (![0, 1] : Fin 2 → Fin SEC.rank)) (v : SE1.Idx → α) (i : SEC.Idx) :
    broadcastInDim SEC ![0, 1] h v i = v (ix2 (i 0) ⟨0, Nat.one_pos⟩) :=
  broadcastInDim_apply _ h v i (ix2 (i 0) ⟨0, Nat.one_pos⟩) (fun a => match a with
    | ⟨0, _⟩ => by show (i 0).val = if (1600000 : Nat) = 1 then 0 else (i 0).val; rw [if_neg (by decide)]
    | ⟨1, _⟩ => by show 0 = if (1 : Nat) = 1 then 0 else (i 1).val; rw [if_pos rfl])

/-- A scalar spread over an array. -/
theorem bcast_scalar_apply (t : Shape) (h : S0.BroadcastsInDim t (![] : Fin 0 → Fin t.rank)) (v : S0.Idx → α) (i : t.Idx) :
    broadcastInDim t ![] h v i = v ix0 :=
  broadcastInDim_apply _ h v i ix0 (fun a => a.elim0)

/-- The bias `[64]` as the row `[1, 64]` … -/
theorem bcast_row_apply (h : SB.BroadcastsInDim SB1 (![1] : Fin 1 → Fin SB1.rank)) (v : SB.Idx → α) (i : SB1.Idx) :
    broadcastInDim SB1 ![1] h v i = v (ix1 (i 1)) :=
  broadcastInDim_apply _ h v i (ix1 (i 1)) (fun a => match a with
    | ⟨0, _⟩ => by show (i 1).val = if (64 : Nat) = 1 then 0 else (i 1).val; rw [if_neg (by decide)])

/-- … repeated over the 100000 node rows. -/
theorem bcast_rows_apply (h : SB1.BroadcastsInDim SN (![0, 1] : Fin 2 → Fin SN.rank)) (v : SB1.Idx → α) (i : SN.Idx) :
    broadcastInDim SN ![0, 1] h v i = v (ix2 ⟨0, Nat.one_pos⟩ (i 1)) :=
  broadcastInDim_apply _ h v i (ix2 ⟨0, Nat.one_pos⟩ (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

end Layout

end Cert.Seg

end
-- ==== Proof.SegReads.lean ====
/-
  The layer's pieces as both programs print them, read at an index.

  Both programs build the same few arrays around the gather and the scatter: the source index vector with its
  negative entries counted from the end, as a column of start indices (`wrapped_col_eq`); an index vector as it is,
  as such a column (`plain_col_eq`); the edge weights as a column repeated over the 64 lanes (`lanes_apply`); the
  bias as a row repeated over the nodes (`bias_apply`); and the scatter-add of update rows into the all-zero table,
  which at `(n, c)` is zero plus the updates of the edges whose start word is `n` (`scatter_zero_apply`). Each is
  stated for any witness of its shape condition, so the kernel's program and the reference's use the same lemma.
  The host's scatter-add is the exact one as a whole function (`scatterAdd_fn_eq`); at an index it is read through
  `scatter_zero_apply`.
-/
import proofs.«152450_j37709812859403_2_alg».proof.Proof.SegSpec

noncomputable section

open scoped BigOperators

namespace Cert.Seg

open Idealize.ShloMosaic Idealize.ShloMosaic.ValueIdx Cert.Lib.RowGatherScatter

/-- The index vector, negative entries counted from the end, as a column of start indices. -/
theorem wrapped_col_eq (h0 : S0.BroadcastsInDim SE (![] : Fin 0 → Fin SE.rank))
    (hc : SE.BroadcastsInDim SE1 (![0] : Fin 1 → Fin SE1.rank)) (v : IVec SE 32) :
    broadcastInDim SE1 ![0] hc
      (select (cmpi .slt v (broadcastInDim SE ![] h0 (constantI S0 32 0#32)))
        (addi v (broadcastInDim SE ![] h0 (constantI S0 32 100000#32))) v) = col (wrap v) := by
  funext i
  rw [bcast_col_apply, select_apply]
  have hA : broadcastInDim SE ![] h0 (constantI S0 32 0#32) (ix1 (i 0)) = 0#32 := by
    rw [bcast_scalar_apply]; rfl
  have hB : broadcastInDim SE ![] h0 (constantI S0 32 100000#32) (ix1 (i 0)) = 100000#32 := by
    rw [bcast_scalar_apply]; rfl
  have hc' : cmpi .slt v (broadcastInDim SE ![] h0 (constantI S0 32 0#32)) (ix1 (i 0))
      = IntOp.cmpi .slt (v (ix1 (i 0))) 0#32 := by
    show IntOp.cmpi .slt (v (ix1 (i 0))) (broadcastInDim SE ![] h0 (constantI S0 32 0#32) (ix1 (i 0))) = _
    rw [hA]
  have ha' : addi v (broadcastInDim SE ![] h0 (constantI S0 32 100000#32)) (ix1 (i 0))
      = IntOp.addi (v (ix1 (i 0))) 100000#32 := by
    show IntOp.addi (v (ix1 (i 0))) (broadcastInDim SE ![] h0 (constantI S0 32 100000#32) (ix1 (i 0))) = _
    rw [hB]
  rw [hc', ha']
  unfold col wrap
  exact rfl

/-- The index vector as it is, as a column of start indices. -/
theorem plain_col_eq (hc : SE.BroadcastsInDim SE1 (![0] : Fin 1 → Fin SE1.rank)) (v : IVec SE 32) :
    broadcastInDim SE1 ![0] hc v = col v := by
  funext i
  rw [bcast_col_apply]
  rfl

/-- The edge weights as a column repeated over the lanes: row `e` holds `w e` in every lane. -/
theorem lanes_apply (hc : SE.BroadcastsInDim SE1 (![0] : Fin 1 → Fin SE1.rank))
    (hl : SE1.BroadcastsInDim SEC (![0, 1] : Fin 2 → Fin SEC.rank)) (w : SE.Idx → EReal) (e : Fin 1600000) (c : Fin 64) :
    broadcastInDim SEC ![0, 1] hl (broadcastInDim SE1 ![0] hc w) (ix2 e c) = w (ix1 e) := by
  rw [bcast_lanes_apply, bcast_col_apply]

/-- The bias as a row repeated over the nodes: column `d` holds `b d` in every row. -/
theorem bias_apply (hr : SB.BroadcastsInDim SB1 (![1] : Fin 1 → Fin SB1.rank))
    (hn : SB1.BroadcastsInDim SN (![0, 1] : Fin 2 → Fin SN.rank)) (b : SB.Idx → EReal) (n : Fin 100000) (d : Fin 64) :
    broadcastInDim SN ![0, 1] hn (broadcastInDim SB1 ![1] hr b) (ix2 n d) = b (ix1 d) := by
  rw [bcast_rows_apply, bcast_row_apply]

/-- The host's accumulating scatter is the exact one, as a whole function. -/
theorem scatterAdd_fn_eq (sd : ScatterDims SN SE1 SEC) (x : FVec Ideal SN .f32) (idx : IVec SE1 32) (upd : FVec Ideal SEC .f32) :
    Host.scatterAdd (F := Ideal) sd x idx upd = Ideal.hostScatterAdd sd x idx upd := rfl

/-- The scatter-add of the update rows into the all-zero table, at `(n, c)`: zero plus the updates of the edges
    whose start word is `n`. -/
theorem scatter_zero_apply (sd : ScatterDims SN SE1 SEC) (h1 : sd.updateWindowDims = [1]) (h2 : sd.insertedWindowDims = [0])
    (h3 : sd.scatterDimsToOperandDims = [0]) (h4 : sd.indexVectorDim = 1)
    (hz : S0.BroadcastsInDim SN (![] : Fin 0 → Fin SN.rank)) (idx : IVec SE1 32) (upd : FVec Ideal SEC .f32)
    (n : Fin 100000) (c : Fin 64) :
    Ideal.hostScatterAdd sd (broadcastInDim SN ![] hz (constant (F := Ideal) S0 .f32 0x00000000#32)) idx upd (ix2 n c)
      = Ideal.ofBits .f32 0x00000000#32
        + ∑ e : Fin 1600000, if (idx (startAt e)).toInt = (n.val : ℤ) then upd (ix2 e c) else 0 := by
  have e2 := hostScatterAdd_rows_apply sd h1 h2 h3 h4
    (broadcastInDim SN ![] hz (constant (F := Ideal) S0 .f32 0x00000000#32)) idx upd n c
  have e3 : broadcastInDim SN ![] hz (constant (F := Ideal) S0 .f32 0x00000000#32) (ix2 n c)
      = Ideal.ofBits .f32 0x00000000#32 :=
    (bcast_scalar_apply SN hz _ (ix2 n c)).trans (constant_apply _ _)
  rw [e3] at e2
  exact e2

end Cert.Seg

end
-- ==== Proof.KernelValue.lean ====
/-
  The kernel's program, index by index.

  After the run the result holds `tail` of the product array. Read at `(n, d)`: the bias entry `b d` plus the
  scatter-add into zeros, which is zero plus, over every edge whose WRAPPED destination word is `n`, the edge's
  update entry — node row `srcRow e` of the product, lane `d`, times `w e` (`tail_apply`). The product array is
  the packed features times `diag(W, W)`, and node row `r`'s lane `d` sits at packed row `r / 2`, lane
  `(r % 2) · 64 + d` (the row-major reshape `[50000, 128] → [100000, 64]`, `nodeRows_apply`), where the packed
  product is `∑_k feat (r, k) · W (k, d)` (`Cert.Packed.packed_prod_apply`). Together: `Cert.Seg.kernelForm` with
  the wrapped destination vector (`kernel_apply`).
-/
import proofs.«152450_j37709812859403_2_alg».proof.Proof.KernelTail
import proofs.«152450_j37709812859403_2_alg».proof.Proof.PackedProduct
import proofs.«152450_j37709812859403_2_alg».proof.Proof.SegReads
import Idealize.ShloMosaic.Lib.Pipeline.Value

noncomputable section

open scoped BigOperators

namespace Cert.KernelIdeal.Value

open Cert.KernelIdeal Cert.KernelIdeal.Gen Cert.KernelIdeal.Tail
open Idealize.ShloMosaic Idealize.ShloMosaic.ValueIdx Cert.Seg Cert.Lib.RowGatherScatter Cert.Lib.MatProd

/-- Node row `n`'s lane `d` is packed row `n / 2`'s lane `(n % 2) · 64 + d`: the same row-major position. -/
theorem nodeRows_apply (y : FVec Ideal S50000x128 .f32) (n : Fin 100000) (d : Fin 64) :
    nodeRows y (ix2 n d) = y (ix2 (⟨n.val / 2, by omega⟩ : Fin 50000) (⟨n.val % 2 * 64 + d.val, by omega⟩ : Fin 128)) := by
  unfold nodeRows
  refine shapeCast_apply (s := S50000x128) (t := S100000x64) _ _ _ _ ?_
  show (S50000x128.rowMajor _).val = (S100000x64.rowMajor _).val
  rw [Shape.rowMajor_val_two, Shape.rowMajor_val_two]
  show n.val / 2 * 128 + (n.val % 2 * 64 + d.val) = n.val * 64 + d.val
  omega

/-- The wrapped column is `Cert.Seg`'s. -/
theorem wrappedCol_eq (v : IVec S1600000 32) : wrappedCol v = col (wrap v) := by
  unfold wrappedCol
  exact wrapped_col_eq _ _ v

/-- Edge `e`'s update row holds `Y (srcRow e, k) · w e` in lane `k`. -/
theorem updates_apply (Y : FVec Ideal S100000x64 .f32) (x1 : FVec Ideal S1600000 .f32) (x2 : IVec S1600000 32)
    (e : Fin 1600000) (k : Fin 64) :
    updates Y x1 x2 (ix2 e k) = Y (ix2 (srcRow x2 e) k) * x1 (ix1 e) := by
  have hg : Host.gather gather_S100000x64_S1600000x1_S1600000x64_1_0_n_n_0_1_164 Y (wrappedCol x2) (ix2 e k)
      = Y (ix2 (srcRow x2 e) k) := by
    rw [wrappedCol_eq]
    exact gather_rows_apply gather_S100000x64_S1600000x1_S1600000x64_1_0_n_n_0_1_164 (by decide)
      rfl rfl rfl rfl rfl rfl rfl Y (col (wrap x2)) e k
  have hw : broadcastInDim S1600000x64 ![0, 1] bcast_S1600000x1_S1600000x64_0_1
      (broadcastInDim S1600000x1 ![0] bcast_S1600000_S1600000x1_0 x1) (ix2 e k) = x1 (ix1 e) :=
    lanes_apply _ _ x1 e k
  unfold updates
  exact (mulf_apply _ _ _).trans (congrArg₂ (fun a b : EReal => a * b) hg hw)

/-- THE TAIL AT `(n, d)`. -/
theorem tail_apply (y : FVec Ideal S50000x128 .f32) (x1 : FVec Ideal S1600000 .f32) (x2 x3 : IVec S1600000 32)
    (x5 : FVec Ideal S64 .f32) (n : Fin 100000) (d : Fin 64) :
    tail y x1 x2 x3 x5 (ix2 n d)
      = (Ideal.ofBits .f32 0x00000000#32 + ∑ e : Fin 1600000,
          if (col (wrap x3) (startAt e)).toInt = (n.val : ℤ)
            then nodeRows y (ix2 (srcRow x2 e) d) * x1 (ix1 e) else 0)
        + x5 (ix1 d) := by
  have hs : Host.scatterAdd (F := Ideal) scatter_S100000x64_S1600000x1_S1600000x64_1_0_0_1 zeros (wrappedCol x3)
        (updates (nodeRows y) x1 x2)
      = Ideal.hostScatterAdd scatter_S100000x64_S1600000x1_S1600000x64_1_0_0_1 zeros (col (wrap x3))
        (updates (nodeRows y) x1 x2) := by
    rw [wrappedCol_eq, scatterAdd_fn_eq]
  have ht := (congrFun hs (ix2 n d)).trans
    ((scatter_zero_apply scatter_S100000x64_S1600000x1_S1600000x64_1_0_0_1 rfl rfl rfl rfl bcast_S_S100000x64
        (col (wrap x3)) (updates (nodeRows y) x1 x2) n d).trans
      (congrArg (fun s => Ideal.ofBits .f32 0x00000000#32 + s)
        (Finset.sum_congr rfl fun e _ => by rw [updates_apply])))
  have hb : biasRows x5 (ix2 n d) = x5 (ix1 d) := by
    unfold biasRows
    exact bias_apply _ _ x5 n d
  unfold tail
  exact (addf_apply _ _ _).trans (congrArg₂ (fun a b : EReal => a + b) ht hb)

/-- THE KERNEL AT `(n, d)`: with the product array the packed features `l` times the block-diagonal `r`. -/
theorem kernel_apply (feat : FVec Ideal S100000x64 .f32) (W : FVec Ideal S64x64 .f32)
    (l : FVec Ideal S50000x128 .f32) (r : FVec Ideal S128x128 .f32)
    (hl : ∀ (P : Fin 50000) (k : Fin 128),
      l (ix2 P k) = feat (ix2 ⟨2 * P.val + k.val / 64, by omega⟩ ⟨k.val % 64, Nat.mod_lt _ (by decide)⟩))
    (hr : ∀ (k q : Fin 128), r (ix2 k q)
      = if k.val / 64 = q.val / 64 then W (ix2 ⟨k.val % 64, Nat.mod_lt _ (by decide)⟩ ⟨q.val % 64, Nat.mod_lt _ (by decide)⟩) else 0)
    (x1 : FVec Ideal S1600000 .f32) (x2 x3 : IVec S1600000 32) (x5 : FVec Ideal S64 .f32)
    (n : Fin 100000) (d : Fin 64) :
    tail (prod l r) x1 x2 x3 x5 (ix2 n d) = kernelForm feat W x1 x5 x2 (wrap x3) n d := by
  have hrow : ∀ e : Fin 1600000, nodeRows (prod l r) (ix2 (srcRow x2 e) d)
      = ∑ k : Fin 64, feat (ix2 (srcRow x2 e) k) * W (ix2 k d) := fun e =>
    (nodeRows_apply (prod l r) (srcRow x2 e) d).trans
      (Cert.Packed.packed_prod_apply feat W l r hl hr (srcRow x2 e) d)
  unfold kernelForm
  refine (tail_apply (prod l r) x1 x2 x3 x5 n d).trans ?_
  exact congrArg (fun s => (Ideal.ofBits .f32 0x00000000#32 + s) + x5 (ix1 d))
    (Finset.sum_congr rfl fun e _ => by rw [hrow e])

end Cert.KernelIdeal.Value

end
-- ==== Proof.LibConcatCols.lean ====
/-
  Two blocks of equal width laid side by side.

  An `[a, b + b]` array formed by joining two `[a, b]` arrays along the column axis reads, at row `r` and column `c`,
  the left array at `(r, c)` when `c < b` and the right array at `(r, c - b)` otherwise.
-/
import Idealize.ShloMosaic.Lib.Pipeline.Value
import Idealize.ShloMosaic.Lib.ValueIdx

namespace Cert.Lib.ConcatCols

open Idealize.ShloMosaic Idealize.ShloMosaic.ValueIdx

/-- The join of two `[a, b]` arrays along columns, read at `(r, c)`: the left one below column `b`, the right one,
    shifted by `b`, from column `b` on. -/
theorem concat_cols_apply {α : Type} {a b n : ℕ} (hn : n = b + b) (x₁ x₂ : (⟨2, ![a, b]⟩ : Shape).Idx → α)
    (h : Shape.Concatenates [(⟨2, ![a, b]⟩ : Shape), (⟨2, ![a, b]⟩ : Shape)] (⟨2, ![a, n]⟩ : Shape) 1)
    (r : Fin a) (c : Fin n) :
    concatenate (⟨2, ![a, n]⟩ : Shape) 1 [⟨(⟨2, ![a, b]⟩ : Shape), x₁⟩, ⟨(⟨2, ![a, b]⟩ : Shape), x₂⟩] h (ix2 r c)
      = if hc : c.val < b then x₁ (ix2 r ⟨c.val, hc⟩)
        else x₂ (ix2 r ⟨c.val - b, by have := c.isLt; omega⟩) := by
  by_cases hc : c.val < b
  · rw [dif_pos hc]
    exact concatenate_pair_apply_left 1 x₁ x₂ h (ix2 r c) rfl (ix2 r ⟨c.val, hc⟩)
      (fun bb => by match bb with | ⟨0, _⟩ => rfl | ⟨1, _⟩ => rfl)
  · rw [dif_neg hc]
    exact concatenate_pair_apply_right 1 x₁ x₂ h (ix2 r c) rfl rfl (ix2 r ⟨c.val - b, by have := c.isLt; omega⟩)
      (fun bb hb => by match bb with | ⟨0, _⟩ => rfl | ⟨1, _⟩ => exact absurd rfl hb)
      (by show (c.val - b) + b = c.val; omega)

end Cert.Lib.ConcatCols
-- ==== Proof.RegionArray.lean ====
/-
  What the kernel's one grid loop leaves in its output array, and what its two operands are.

  The program packs the node features `X` (100000 rows of 64) two rows to a row, `X₂` (50000 rows of 128: packed row
  `P` is node rows `2P` and `2P + 1` side by side), and builds the block-diagonal matrix `diag(W, W)` (128 by 128: `W` on
  the two diagonal 64 by 64 blocks, zero elsewhere). The grid has ten points; point `t` multiplies rows
  `5000 t … 5000 t + 4999` of `X₂` by the whole of `diag(W, W)`, adding into a zero accumulator, and writes the 5000 rows
  of the product to the same rows of the output.

  A product of a block of rows with a matrix is that block of rows of the whole product, and the ten blocks of 5000 rows
  tile the 50000 rows; so after the last point the output array is the matrix product `X₂ · diag(W, W)`
  (`region_array`). The operands are read entry by entry: `X₂ (P, k) = X (2P + k / 64, k % 64)` (`v0_apply`), and
  `diag(W, W) (k, q) = W (k % 64, q % 64)` when `k` and `q` lie in the same half, `0` otherwise (`v4_apply`).
  All over the extended reals, where the change of float format before the product is the identity.
-/
import proofs.«152450_j37709812859403_2_alg».proof.Proof.Gen.KernelIdeal.Frame
import proofs.«152450_j37709812859403_2_alg».proof.Proof.LibMatProd
import proofs.«152450_j37709812859403_2_alg».proof.Proof.LibConcatCols
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The body of one grid point is a matrix product -/

/-- The loads and the store of the body start at the origin of their buffers. -/
theorem origin_zero : (![0, 0] : Fin 2 → Nat) = fun _ => 0 := funext fun a => by fin_cases a <;> rfl

/-- The contraction pairs the left operand's row with the output's row, -/
theorem left_row (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
/-- its column with the summation index, -/
theorem left_col (i : S5000x128.Idx) (q : (dot_S5000x128_S128x128_S5000x128_1_0_0_1_n_n).contr.Idx) :
    ((dot_S5000x128_S128x128_S5000x128_1_0_0_1_n_n).lhsIdx i q 1).val = (q ⟨0, by decide⟩).val :=
  (dot_S5000x128_S128x128_S5000x128_1_0_0_1_n_n).lhsIdx_val_of_single rfl i q
/-- the right operand's row with the summation index, -/
theorem right_row (i : S5000x128.Idx) (q : (dot_S5000x128_S128x128_S5000x128_1_0_0_1_n_n).contr.Idx) :
    ((dot_S5000x128_S128x128_S5000x128_1_0_0_1_n_n).rhsIdx i q 0).val = (q ⟨0, by decide⟩).val :=
  (dot_S5000x128_S128x128_S5000x128_1_0_0_1_n_n).rhsIdx_val_of_single rfl i q
/-- and its column with the output's column. -/
theorem right_col (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- What the body stores is rows times columns of the two blocks it loads: the casts to the same shape and the
    narrowing of the float format are identities, and the accumulator is zero. -/
theorem body_is_product (x0 : Vec Ideal S5000x128 .f32) (x1 : Vec Ideal S128x128 .f32) :
    (k0_pay1 (F := Ideal) x0 x1 : S5000x128.Idx → EReal) = Cert.Lib.MatProd.prod x0 x1 := by
  unfold k0_pay1
  simp only [shapeCast_self]
  exact Cert.Lib.MatProd.matmul_zero_eq_prod dot_S5000x128_S128x128_S5000x128_1_0_0_1_n_n rfl rfl left_row left_col right_row right_col none _ _

/-! ## Which rows a grid point reads and writes -/

/-- Point `t` takes block `(t, 0)` of the left operand and of the output, and block `(0, 0)` of the right operand. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Rows times columns of a block of 5000 rows: when the block's rows are rows `5000 T …` of the left operand and the
    right block is the whole right operand, the block product at a position is the whole product at the array index
    the position lands on. -/
theorem block_product (l : S50000x128.Idx → EReal) (r : S128x128.Idx → EReal)
    (lb : Vec Ideal S5000x128 .f32) (rb : Vec Ideal S128x128 .f32) (T : ℕ)
    (y : S5000x128.Idx) (i : S50000x128.Idx)
    (hi0 : (i 0).val = T * 5000 + (y 0).val) (hi1 : (i 1).val = (y 1).val)
    (hl : ∀ (k : Fin 128) (h : T * 5000 + (y 0).val < 50000), lb (ix2 (y 0) k) = l (ix2 ⟨T * 5000 + (y 0).val, h⟩ k))
    (hr : ∀ k : Fin 128, rb (ix2 k (y 1)) = r (ix2 k (y 1))) :
    Cert.Lib.MatProd.prod lb rb y = Cert.Lib.MatProd.prod l r i := by
  have h : T * 5000 + (y 0).val < 50000 := by have hlt : (i 0).val < 50000 := idx2_lt0 i; omega
  have ey : y = ix2 (y 0) (y 1) := eq_ix2 y
  have ei : i = ix2 ⟨T * 5000 + (y 0).val, h⟩ (y 1) := by
    funext a; apply Fin.ext
    match a with
    | ⟨0, _⟩ => exact hi0
    | ⟨1, _⟩ => exact hi1
  rw [ey, ei]
  exact Cert.Lib.MatProd.prod_rows l r lb rb T (y 0) (y 1) h (fun k => hl k h) hr

/-- WHAT POINT `t` WRITES BACK is block `t` of the product of the two operand arrays as the region finds them. -/
theorem written_block (c : Dev nD) (t : Fin cfg0.N) :
    (dats (F := Ideal) m 0 c).flushed 2 t = ((cfg0.win 2).blk t).view.read (Elt Ideal)
      (Cert.Lib.MatProd.prod (V (F := Ideal) m c main_v0) (V (F := Ideal) m c main_v4)) := by
  show (cfg0.win 2).cut (grid0.coords t) ((dats (F := Ideal) m 0 c).after 2 t) = _
  rw [after0_2]
  unfold out0_2
  rw [View.canon_unit_zero origin_zero]
  simp only [View.ld_unit_zero (S := S5000x128) origin_zero, View.ld_unit_zero (S := S128x128) origin_zero]
  rw [body_is_product]
  obtain ⟨e0, e1, e2, e3, e4, e5⟩ := block_indices t
  funext j
  show Cert.Lib.MatProd.prod (iblk (F := Ideal) m c 0 t) (iblk (F := Ideal) m c 1 t) j
    = Cert.Lib.MatProd.prod (V (F := Ideal) m c main_v0) (V (F := Ideal) m c main_v4) (((cfg0.win 2).blk t).view.emb j)
  refine block_product _ _ _ _ t.val j _ ?_ ?_ ?_ ?_
  · show win0_2.index t (0 : Fin 2) * 5000 + 1 * (j 0).val = _
    rw [e4]; omega
  · show win0_2.index t (1 : Fin 2) * 128 + 1 * (j 1).val = _
    rw [e5]; omega
  · intro k h
    unfold iblk
    rw [View.read_apply]
    show V (F := Ideal) m c main_v0 (((cfg0.win 0).blk t).view.emb _) = V (F := Ideal) m c main_v0 _
    refine congrArg _ (funext fun a => Fin.ext ?_)
    match a with
    | ⟨0, _⟩ => show win0_0.index t (0 : Fin 2) * 5000 + 1 * (j 0).val = t.val * 5000 + (j 0).val; rw [e0]; omega
    | ⟨1, _⟩ => show win0_0.index t (1 : Fin 2) * 128 + 1 * k.val = k.val; rw [e1]; omega
  · intro k
    unfold iblk
    rw [View.read_apply]
    show V (F := Ideal) m c main_v4 (((cfg0.win 1).blk t).view.emb _) = V (F := Ideal) m c main_v4 _
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = (j 1).val; rw [e3]; omega

/-! ## The blocks tile the array -/

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v5).slice (win0_2.rect t)).set ↔ _
  rw [View.set_slice_whole, Rect.mem_set_unit]
  exact Iff.rfl

/-- Row `r` of the output array lies in the block of point `r / 5000`: ten blocks of 5000 rows tile the 50000 rows. -/
theorem rows_tiled (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := N_0
  let t : Fin cfg0.N := ⟨(i 0).val / 5000, by rw [hN]; omega⟩
  obtain ⟨e0, e1, e2, e3, e4, e5⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- THE OUTPUT ARRAY after the last grid point: the matrix product of the two operand arrays as the region finds them. -/
theorem region_array (c : Dev nD) :
    ((Gen.dats (F := Ideal) m 0 c).arrAt 2 cfg0.N : S50000x128.Idx → EReal)
      = Cert.Lib.MatProd.prod (Gen.V (F := Ideal) m c main_v0) (Gen.V (F := Ideal) m c main_v4) :=
  (dats (F := Ideal) m 0 c).arrAt_eq_of_cover 2 (Cert.Lib.MatProd.prod (V (F := Ideal) m c main_v0) (V (F := Ideal) m c main_v4))
    (fun t _ => written_block m c t) rows_tiled

/-! ## The two operand arrays as the region finds them -/

/-- The left operand is the row-major reshape of the node features to rows of 128. -/
theorem v0_eq (c : Dev nD) :
    (V (F := Ideal) m c main_v0 : S50000x128.Idx → EReal)
      = shapeCast S50000x128 (m ((c : Thread nD τ).loc main_arg0) : S100000x64.Idx → EReal) shapeCasts_S100000x64_S50000x128 := by
  show StableHlo.after hostOps0 (fun b => m (c, b)) (Proc.devRef .tc main_v0) = _
  after_results
  rfl

/-- Packed row `P` holds node rows `2P` and `2P + 1` side by side. -/
theorem v0_apply (c : Dev nD) (P : Fin 50000) (k : Fin 128) :
    Gen.V (F := Ideal) m c main_v0 (ix2 P k)
      = m ((c : Thread nD τ).loc main_arg0) (ix2 ⟨2 * P.val + k.val / 64, by omega⟩ ⟨k.val % 64, Nat.mod_lt _ (by decide)⟩) := by
  rw [v0_eq]
  refine shapeCast_apply (s := S100000x64) (t := S50000x128) _ _ _ _ ?_
  show (S100000x64.rowMajor _).val = (S50000x128.rowMajor _).val
  rw [Shape.rowMajor_val_two, Shape.rowMajor_val_two]
  show (2 * P.val + k.val / 64) * 64 + k.val % 64 = P.val * 128 + k.val
  omega

/-- The 64 by 64 block of zeros the host builds: the zero word broadcast. -/
abbrev zeroBlock : S64x64.Idx → EReal :=
  broadcastInDim S64x64 ![] bcast_S_S64x64 (constant (F := Ideal) S_ .f32 0x00000000#32)

/-- Every entry of it is the real zero. -/
theorem zeroBlock_apply (i : S64x64.Idx) : zeroBlock i = 0 := by
  unfold zeroBlock
  rw [broadcastInDim_apply (s := S_) (t := S64x64) ![] bcast_S_S64x64 _ i ix0 (fun a => a.elim0), constant_apply]
  exact Ideal.ofBits_zero_f32

/-- The right operand is the join along rows of `[W | 0]` and `[0 | W]`. -/
theorem v4_eq (c : Dev nD) :
    (V (F := Ideal) m c main_v4 : S128x128.Idx → EReal)
      = concatenate S128x128 0
          [⟨S64x128, concatenate S64x128 1 [⟨S64x64, (m ((c : Thread nD τ).loc main_arg4) : S64x64.Idx → EReal)⟩, ⟨S64x64, zeroBlock⟩] concatenates_S64x64_S64x64_S64x128_d1⟩,
           ⟨S64x128, concatenate S64x128 1 [⟨S64x64, zeroBlock⟩, ⟨S64x64, (m ((c : Thread nD τ).loc main_arg4) : S64x64.Idx → EReal)⟩] concatenates_S64x64_S64x64_S64x128_d1⟩]
          concatenates_S64x128_S64x128_S128x128_d0 := by
  show StableHlo.after hostOps0 (fun b => m (c, b)) (Proc.devRef .tc main_v4) = _
  after_results

/-- An entry of a 64 by 64 array depends on its coordinates' values only. -/
theorem entry_congr (x : S64x64.Idx → EReal) (a a' b b' : Fin 64) (ha : a.val = a'.val) (hb : b.val = b'.val) :
    x (ix2 a b) = x (ix2 a' b') := by
  obtain rfl := Fin.ext ha
  obtain rfl := Fin.ext hb
  rfl

/-- `diag(W, W)`: `W` on the two diagonal 64 by 64 blocks, zero elsewhere. -/
theorem v4_apply (c : Dev nD) (k q : Fin 128) :
    (Gen.V (F := Ideal) m c main_v4 (ix2 k q) : EReal)
      = (if k.val / 64 = q.val / 64 then m ((c : Thread nD τ).loc main_arg4) (ix2 ⟨k.val % 64, Nat.mod_lt _ (by decide)⟩ ⟨q.val % 64, Nat.mod_lt _ (by decide)⟩) else 0 : EReal) := by
  rw [v4_eq]
  have hk128 := k.isLt
  have hq128 := q.isLt
  by_cases hk : k.val < 64
  · rw [concatenate_pair_apply_left (t := S128x128) (s₁ := S64x128) (s₂ := S64x128) 0 _ _ concatenates_S64x128_S64x128_S128x128_d0 (ix2 k q) rfl
        (ix2 ⟨k.val, hk⟩ q) (fun b => by match b with | ⟨0, _⟩ => rfl | ⟨1, _⟩ => rfl),
      Cert.Lib.ConcatCols.concat_cols_apply (a := 64) (b := 64) (n := 128) rfl _ _ concatenates_S64x64_S64x64_S64x128_d1 ⟨k.val, hk⟩ q]
    by_cases hq : q.val < 64
    · rw [dif_pos hq, if_pos (by omega)]
      exact entry_congr _ _ _ _ _ (by show k.val = k.val % 64; omega) (by show q.val = q.val % 64; omega)
    · rw [dif_neg hq, if_neg (by omega)]
      exact zeroBlock_apply _
  · rw [concatenate_pair_apply_right (t := S128x128) (s₁ := S64x128) (s₂ := S64x128) 0 _ _ concatenates_S64x128_S64x128_S128x128_d0 (ix2 k q) rfl rfl
        (ix2 ⟨k.val - 64, by omega⟩ q) (fun b hb => by match b with | ⟨0, _⟩ => exact absurd rfl hb | ⟨1, _⟩ => rfl)
        (by show (k.val - 64) + 64 = k.val; omega),
      Cert.Lib.ConcatCols.concat_cols_apply (a := 64) (b := 64) (n := 128) rfl _ _ concatenates_S64x64_S64x64_S64x128_d1 ⟨k.val - 64, by omega⟩ q]
    by_cases hq : q.val < 64
    · rw [dif_pos hq, if_neg (by omega)]
      exact zeroBlock_apply _
    · rw [dif_neg hq, if_pos (by omega)]
      exact entry_congr _ _ _ _ _ (by show k.val - 64 = k.val % 64; omega) (by show q.val - 64 = q.val % 64; omega)

end Cert.KernelIdeal.Region

end
-- ==== Proof.PreFacts.lean ====
/-
  What the precondition says, entry by entry, when a float is an extended real.

  The precondition is a conjunction of five bits.  Four of them say, each for one float input,
  that every entry satisfies |x| < +∞, where |x| is max x (-x) and +∞ is what the word
  0x7F800000 denotes; the fifth says that every entry of the second integer input is ≥ 0 as a
  signed 32-bit integer.  Each bit is an "and" over all entries, so the conjunction being 1 gives
  the comparison at every single entry.

  * An extended real x with max x (-x) < ⊤ is neither ⊤ (then x < ⊤ fails) nor ⊥ (then -x = ⊤),
    so it is a real number.  This is what lets the later algebra distribute products over finite
    sums and exchange finite sums, laws that fail at the infinities.
  * A 32-bit word w with 0 ≤ w as a signed integer does not satisfy w < 0, so the bit of the
    signed comparison w < 0 is 0.
-/
import proofs.«152450_j37709812859403_2_alg».proof.Pre_finite_inputs
import proofs.«152450_j37709812859403_2_alg».proof.Proof.Gen.Pre_finite_inputs
import Idealize.ShloMosaic.PureOps.Ideal
import Idealize.ShloMosaic.Lib.ValueIdx
import Idealize.ShloMosaic.Lib.ReduceAll

namespace Cert.PreFacts

open Idealize.ShloMosaic Cert.Pre_finite_inputs

/-- The shape with no axes has exactly one index. -/
instance : Subsingleton S_.Idx := ⟨fun a b => funext fun d => d.elim0⟩

/-- The word 0x7F800000 denotes +∞. -/
theorem top_bits : Ideal.ofBits .f32 0x7F800000#32 = (⊤ : EReal) := by
  simp [Ideal.ofBits, Ideal.ieee]

/-- An extended real whose absolute value max x (-x) is below +∞ is a real number:
    x = ⊤ contradicts x < ⊤, and x = ⊥ gives -x = ⊤, contradicting -x < ⊤. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [top_bits] at h
  change BitVec.ofBool (decide (max x (-x) < ⊤)) = 1#1 at h
  have h' : max x (-x) < ⊤ := by
    by_contra hc
    rw [decide_eq_false hc] at h
    exact absurd h (by decide)
  obtain ⟨h1, h2⟩ := max_lt_iff.1 h'
  induction x using EReal.rec with
  | bot => simp at h2
  | coe r => exact ⟨r, rfl⟩
  | top => simp at h1

/-- A word that is ≥ 0 as a signed integer is not < 0: the bit of the signed comparison w < 0 is 0. -/
theorem nonneg_bit (w : BitVec 32) (h : IntOp.cmpi .sge w 0#32 = 1#1) : IntOp.cmpi .slt w 0#32 = 0#1 := by
  refine ValueIdx.eq_zero_of_ne_one fun hc => ?_
  have h1 := IntOp.cmpi_sge.1 h
  have h2 := IntOp.cmpi_slt.1 hc
  omega

/-- The same fact as an inequality of integers: a word whose comparison bit w < 0 is 0 has a
    nonnegative signed value. -/
theorem toInt_nonneg_of_slt_zero (w : BitVec 32) (h : IntOp.cmpi .slt w 0#32 = 0#1) : 0 ≤ w.toInt := by
  by_contra hc
  have h1 : IntOp.cmpi .slt w 0#32 = 1#1 := IntOp.cmpi_slt.2 (by
    have : (0#32 : BitVec 32).toInt = 0 := by decide
    omega)
  rw [h] at h1
  exact absurd h1 (by decide)

/-- The precondition, opened: every entry of the first, second and fifth inputs is a real number,
    and every entry of the fourth input is nonnegative as a signed integer (stated as: the bit of
    the signed comparison with 0 is 0).  The conjunction of five bits is 1 exactly when each bit is;
    each bit is an "and" over all entries of one comparison, so it is 1 only if the comparison holds
    at every entry; the two lemmas above read the comparison at an entry. -/
theorem of_pre [Cert.Pre_finite_inputs.Facts]
    (x0 : FVec Ideal S100000x64 .f32) (x1 : FVec Ideal S1600000 .f32) (x2 x3 : IVec S1600000 32)
    (x4 : FVec Ideal S64x64 .f32) (x5 : FVec Ideal S64 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x4 i = (r : EReal))
      ∧ (∀ i, IntOp.cmpi .slt (x3 i) 0#32 = 0#1) := by
  have h0 := congrFun h ValueIdx.ix0
  dsimp only [fn, fn_part1] at h0
  simp only [andi, IntOp.andi_eq_one] at h0
  obtain ⟨⟨⟨⟨a0, a1⟩, a4⟩, -⟩, a3⟩ := h0
  refine ⟨fun i => real_of_abs_lt (x0 i) ?_, fun i => real_of_abs_lt (x1 i) ?_,
    fun i => real_of_abs_lt (x4 i) ?_, fun i => nonneg_bit (x3 i) ?_⟩
  · exact Host.reduce_andi_all _ _ _ _ _ a0 i
  · exact Host.reduce_andi_all _ _ _ _ _ a1 i
  · exact Host.reduce_andi_all _ _ _ _ _ a4 i
  · exact Host.reduce_andi_all _ _ _ _ _ a3 i

/-- The last conjunct of `of_pre` as an inequality of integers. -/
theorem x3_toInt_nonneg [Cert.Pre_finite_inputs.Facts]
    (x0 : FVec Ideal S100000x64 .f32) (x1 : FVec Ideal S1600000 .f32) (x2 x3 : IVec S1600000 32)
    (x4 : FVec Ideal S64x64 .f32) (x5 : FVec Ideal S64 .f32)
    (h : Cert.Pre_finite_inputs.fn (F := Ideal) x0 x1 x2 x3 x4 x5 = fun _ => 1#1) (i : S1600000.Idx) :
    0 ≤ (x3 i).toInt :=
  toInt_nonneg_of_slt_zero _ ((of_pre x0 x1 x2 x3 x4 x5 h).2.2.2 i)

end Cert.PreFacts
-- ==== Proof.Layer.lean ====
/-
  The layer's result as one array.

  `layer feat W w b src dst` is the `[100000, 64]` array whose entry `(n, d)` is `Cert.Seg.refForm` there: the bias
  plus, over the 64 features `k`, the weighted segment sum of feature `k` into node `n` times `W (k, d)`. Both
  programs are shown to end with this array in their result buffer.
-/
import proofs.«152450_j37709812859403_2_alg».proof.Proof.SegSpec

noncomputable section

namespace Cert.Seg

open Idealize.ShloMosaic

/-- The result array both programs compute. -/
def layer (feat : SN.Idx → EReal) (W : SW.Idx → EReal) (w : SE.Idx → EReal) (b : SB.Idx → EReal)
    (src dst : IVec SE 32) : SN.Idx → EReal :=
  fun i => refForm feat W w b src dst (i 0) (i 1)

end Cert.Seg

end
-- ==== Proof.KernelBridge.lean ====
/-
  The kernel's program ends with the layer's array.

  The run's post names the result buffer as the tail of the output window's final array. That array is the packed
  features times `diag(W, W)` (the grid's ten row blocks tile it, each the product of its own rows), the packed
  features are `feat` reshaped and the right operand is the block-diagonal matrix built from `W`; so the tail at
  `(n, d)` is `kernelForm` with the WRAPPED destination vector. Under the precondition no destination index is
  negative, so wrapping changes nothing, and every feature, edge weight and matrix entry is a real number, so the
  matrix may be moved across the weighted segment sum (`Cert.Seg.forms_eq`): the result is `Cert.Seg.layer`.
-/
import proofs.«152450_j37709812859403_2_alg».proof.Proof.KernelValue
import proofs.«152450_j37709812859403_2_alg».proof.Proof.RegionArray
import proofs.«152450_j37709812859403_2_alg».proof.Proof.PreFacts
import proofs.«152450_j37709812859403_2_alg».proof.Proof.Layer

noncomputable section

namespace Cert.KernelIdeal.Bridge

open Cert.KernelIdeal Cert.KernelIdeal.Gen Idealize.ShloMosaic Idealize.ShloMosaic.TcCoe Idealize.SL.Sem
open Idealize.ShloMosaic.ValueIdx Cert.Seg

variable (m : (ℓ : Loc nD τ sig) → Buf (Elt Ideal) ℓ)

/-- The result buffer after the run is the layer's array of the arguments as launched. -/
theorem result_eq [Cert.Pre_finite_inputs.Facts] (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Pipeline.afterTail₀ cfgs (dats (F := Ideal) m) 0 (V0 m) [hostOps1] c main_v27
      = layer (m ((c.tc : Thread nD τ).loc main_arg0)) (m ((c.tc : Thread nD τ).loc main_arg4))
          (m ((c.tc : Thread nD τ).loc main_arg1)) (m ((c.tc : Thread nD τ).loc main_arg5))
          (m ((c.tc : Thread nD τ).loc main_arg2)) (m ((c.tc : Thread nD τ).loc main_arg3)) := by
  obtain ⟨hf, hw, hW, hd⟩ := Cert.PreFacts.of_pre _ _ _ _ _ _ hpre
  refine (Tail.tail_value m c).trans ?_
  rw [Region.region_array m c]
  funext i
  obtain ⟨n, d, rfl⟩ : ∃ (n : Fin 100000) (d : Fin 64), i = ix2 n d := ⟨i 0, i 1, eq_ix2 i⟩
  refine (Value.kernel_apply (m ((c.tc : Thread nD τ).loc main_arg0)) (m ((c.tc : Thread nD τ).loc main_arg4)) _ _
    (Region.v0_apply m c) (Region.v4_apply m c) _ _ _ _ n d).trans ?_
  rw [wrap_eq _ hd]
  exact forms_eq _ _ _ _ _ _ hf hw hW n d

/-- The kernel's run with its result named: the layer's array, the arguments unchanged. -/
theorem run [Cert.Pre_finite_inputs.Facts] (ρ : Dev nD → PrngReg)
    (hpre : ∀ c : Dev nD, Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    θ_run defs (onTc (τ := τ) (main (F := Ideal))) ⟨m, fun _ => 0, ρ⟩ (fun r => ∀ c : Dev nD,
      r.2.mem ((c.tc : Thread nD τ).loc main_v27)
          = layer (m ((c.tc : Thread nD τ).loc main_arg0)) (m ((c.tc : Thread nD τ).loc main_arg4))
              (m ((c.tc : Thread nD τ).loc main_arg1)) (m ((c.tc : Thread nD τ).loc main_arg5))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v27 (Pipeline.mem_restRefs_of main_v27 (by decide) (by decide))).trans (result_eq m c (hpre c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Bridge

end
-- ==== Proof.RefValue.lean ====
/-
  The reference, index by index.

  The reference gathers each edge's source row of `feat` (a negative source index counted from the end), scales it
  by the edge weight, adds the scaled rows into an all-zero table at the edges' destination words AS THEY ARE (an
  edge whose destination word is no row of the table is dropped), multiplies the table by `W` and adds the bias.
  Read at `(n, d)` through the generated one-operation-at-a-time lemmas, the gather and the scatter through the
  row lemmas, this is `Cert.Seg.refForm`: `(∑_k (0 + ∑_e [dst e = n] feat (srcRow e, k) · w e) · W (k, d)) + b d`.
-/
import proofs.«152450_j37709812859403_2_alg».proof.Proof.Gen.ReferenceIdeal.Read
import proofs.«152450_j37709812859403_2_alg».proof.Proof.SegReads

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Seg Cert.Lib.RowGatherScatter

/-- The scaled gathered rows: edge `e`'s update row holds `feat (srcRow e, k) · w e` in lane `k`. -/
theorem update_apply (x0 : FVec Ideal S100000x64 .f32) (x1 : FVec Ideal S1600000 .f32) (x2 : IVec S1600000 32)
    (e : Fin 1600000) (k : Fin 64) :
    val_main_v9 (F := Ideal) x0 x1 x2 (ix2 e k) = x0 (ix2 (srcRow x2 e) k) * x1 (ix1 e) := by
  rw [val_main_v9_apply, Ideal.mulf_def]
  have hg : val_main_v6 (F := Ideal) x0 x2 (ix2 e k) = x0 (ix2 (srcRow x2 e) k) := by
    unfold val_main_v6 val_main_v5 val_main_v4 val_main_v1 val_main_v3 val_main_v0 val_main_v2 val_main_c val_main_c_0
    rw [wrapped_col_eq]
    exact gather_rows_apply gather_S100000x64_S1600000x1_S1600000x64_1_0_n_n_0_1_164 (by decide)
      rfl rfl rfl rfl rfl rfl rfl x0 (col (wrap x2)) e k
  have hw : val_main_v8 (F := Ideal) x1 (ix2 e k) = x1 (ix1 e) := by
    unfold val_main_v8 val_main_v7
    exact lanes_apply _ _ x1 e k
  rw [hg, hw]

/-- The table the edges' rows are added into, at `(n, k)`: zero plus, over every edge whose destination word is
    `n`, its scaled source row's lane `k`. -/
theorem table_apply (x0 : FVec Ideal S100000x64 .f32) (x1 : FVec Ideal S1600000 .f32) (x2 x3 : IVec S1600000 32)
    (n : Fin 100000) (k : Fin 64) :
    val_main_v12 (F := Ideal) x0 x1 x2 x3 (ix2 n k)
      = Ideal.ofBits .f32 0x00000000#32 + ∑ e : Fin 1600000,
          if (col x3 (startAt e)).toInt = (n.val : ℤ) then x0 (ix2 (srcRow x2 e) k) * x1 (ix1 e) else 0 := by
  have hs : val_main_v12 (F := Ideal) x0 x1 x2 x3
      = Ideal.hostScatterAdd scatter_S100000x64_S1600000x1_S1600000x64_1_0_0_1
          (broadcastInDim S100000x64 ![] bcast_S_S100000x64 (constant (F := Ideal) S_ .f32 0x00000000#32))
          (col x3) (val_main_v9 (F := Ideal) x0 x1 x2) := by
    unfold val_main_v12 val_main_v10 val_main_cst val_main_v11
    rw [plain_col_eq, scatterAdd_fn_eq]
  refine (congrFun hs (ix2 n k)).trans ?_
  refine (scatter_zero_apply scatter_S100000x64_S1600000x1_S1600000x64_1_0_0_1 rfl rfl rfl rfl bcast_S_S100000x64
    (col x3) (val_main_v9 (F := Ideal) x0 x1 x2) n k).trans ?_
  exact congrArg (fun s => Ideal.ofBits .f32 0x00000000#32 + s)
    (Finset.sum_congr rfl fun e _ => by rw [update_apply])

/-- THE REFERENCE AT `(n, d)`. -/
theorem ref_apply (x0 : FVec Ideal S100000x64 .f32) (x1 : FVec Ideal S1600000 .f32) (x2 x3 : IVec S1600000 32)
    (x4 : FVec Ideal S64x64 .f32) (x5 : FVec Ideal S64 .f32) (n : Fin 100000) (d : Fin 64) :
    val_main_v16 (F := Ideal) x0 x1 x2 x3 x4 x5 (ix2 n d) = refForm x0 x4 x1 x5 x2 x3 n d := by
  have hb : val_main_v15 (F := Ideal) x5 (ix2 n d) = x5 (ix1 d) := by
    unfold val_main_v15 val_main_v14
    exact bias_apply _ _ x5 n d
  have hl : ∀ k : Fin 64, lidx_main_v13 (ix2 n d) k = ix2 n k := fun k =>
    funext fun a => Fin.ext (by match a with | ⟨0, _⟩ => rfl | ⟨1, _⟩ => rfl)
  have hr : ∀ k : Fin 64, ridx_main_v13 (ix2 n d) k = ix2 k d := fun k =>
    funext fun a => Fin.ext (by match a with | ⟨0, _⟩ => rfl | ⟨1, _⟩ => rfl)
  have h16 := val_main_v16_apply (F := Ideal) x0 x1 x2 x3 x4 x5 (ix2 n d)
  have h13 := val_main_v13_apply x0 x1 x2 x3 x4 (ix2 n d)
  have hsum : (∑ k : Fin 64, val_main_v12 (F := Ideal) x0 x1 x2 x3 (lidx_main_v13 (ix2 n d) k) * x4 (ridx_main_v13 (ix2 n d) k))
      = ∑ k : Fin 64, (Ideal.ofBits .f32 0x00000000#32 + ∑ e : Fin 1600000,
          if (col x3 (startAt e)).toInt = (n.val : ℤ) then x0 (ix2 (srcRow x2 e) k) * x1 (ix1 e) else 0) * x4 (ix2 k d) :=
    Finset.sum_congr rfl fun k _ => by
      rw [hl k, hr k]
      exact congrArg (fun t => t * x4 (ix2 k d)) (table_apply x0 x1 x2 x3 n k)
  unfold refForm
  exact h16.trans (congrArg₂ (fun a b : EReal => a + b) (h13.trans hsum) hb)

end Cert.ReferenceIdeal.RefValue

end
-- ==== Proof.RefBridge.lean ====
/-
  The reference's result term is the layer's array.

  The generated run states the reference's result as its operations' composed term of the arguments; that term is
  the last stage `val_main_v16`, which at every `(n, d)` is `Cert.Seg.refForm` (`RefValue.ref_apply`): as a whole
  array it is `Cert.Seg.layer`. No precondition is needed on this side.
-/
import proofs.«152450_j37709812859403_2_alg».proof.Proof.RefValue
import proofs.«152450_j37709812859403_2_alg».proof.Proof.Layer

noncomputable section

namespace Cert.ReferenceIdeal.RefValue

open Cert.ReferenceIdeal Cert.ReferenceIdeal.Gen Cert.ReferenceIdeal.Read
open Idealize.ShloMosaic Idealize.ShloMosaic.ValueIdx Cert.Seg

/-- The reference's last stage, as a whole array. -/
theorem ref_layer (x0 : FVec Ideal S100000x64 .f32) (x1 : FVec Ideal S1600000 .f32) (x2 x3 : IVec S1600000 32)
    (x4 : FVec Ideal S64x64 .f32) (x5 : FVec Ideal S64 .f32) :
    val_main_v16 (F := Ideal) x0 x1 x2 x3 x4 x5 = layer x0 x4 x1 x5 x2 x3 := by
  funext i
  obtain ⟨n, d, rfl⟩ : ∃ (n : Fin 100000) (d : Fin 64), i = ix2 n d := ⟨i 0, i 1, eq_ix2 i⟩
  exact ref_apply x0 x1 x2 x3 x4 x5 n d

end Cert.ReferenceIdeal.RefValue

end
-- ==== Proof.lean ====
/-
  A graph layer — gather each edge's source row, scale it by the edge weight, sum into the destination node, apply a
  64 × 64 matrix, add a bias — computed two ways, equal on the extended reals.

  The kernel applies the matrix FIRST, to all 100000 node rows at once (two node rows packed into one 128-lane
  row, times the block-diagonal matrix diag(W, W), a grid of ten row blocks), and then gathers, scales and sums the
  transformed rows; the reference gathers, scales and sums the raw rows and applies the matrix LAST. Index by index
  both are  b d + ∑_k ∑_{e : dst e = n} feat (src e, k) · w e · W (k, d) : a linear map commutes with a weighted
  segment sum. Two things make that an equation of extended reals here.
  * Finiteness. Distributing the product over the sum over `k` and exchanging the sums over `e` and `k` fail at
    infinities, so the precondition's "every float input is finite" is used: features, edge weights and matrix
    entries are real numbers (the bias need not be).
  * The destination indices. The kernel adds into row `dst e` after counting a negative `dst e` from the end (jnp's
    `.at[dst].add`), the reference adds into row `dst e` as it is and drops an edge whose index is no row
    (`segment_sum`). For `dst e = -1` the kernel adds the edge into the last node and the reference nowhere, so the
    two results differ there; the statement carries the conjunct `dst ≥ 0`, under which wrapping changes nothing.
    Source indices are treated alike by both programs (wrapped, then clamped by the gather) and need no condition.
  The frames of the two programs with a kernel are the generated ones; the reference's frame is its generated run
  with the result dropped; the idealization rewrote nothing, so `preserves` is trivial.
-/
import proofs.«152450_j37709812859403_2_alg».proof.Defs
import proofs.«152450_j37709812859403_2_alg».proof.Proof.Gen.Kernel
import proofs.«152450_j37709812859403_2_alg».proof.Proof.Gen.Kernel.Skeleton
import proofs.«152450_j37709812859403_2_alg».proof.Proof.Gen.Kernel.Launch
import proofs.«152450_j37709812859403_2_alg».proof.Proof.Gen.Kernel.Points
import proofs.«152450_j37709812859403_2_alg».proof.Proof.Gen.Kernel.Frame
import proofs.«152450_j37709812859403_2_alg».proof.Proof.Gen.KernelIdeal
import proofs.«152450_j37709812859403_2_alg».proof.Proof.Gen.KernelIdeal.Skeleton
import proofs.«152450_j37709812859403_2_alg».proof.Proof.Gen.KernelIdeal.Launch
import proofs.«152450_j37709812859403_2_alg».proof.Proof.Gen.KernelIdeal.Points
import proofs.«152450_j37709812859403_2_alg».proof.Proof.Gen.KernelIdeal.Frame
import proofs.«152450_j37709812859403_2_alg».proof.Proof.Gen.ReferenceIdeal
import proofs.«152450_j37709812859403_2_alg».proof.Proof.Gen.ReferenceIdeal.Run
import proofs.«152450_j37709812859403_2_alg».proof.Proof.Gen.ReferenceIdeal.Read
import proofs.«152450_j37709812859403_2_alg».proof.Proof.Gen.Pre_finite_inputs
import proofs.«152450_j37709812859403_2_alg».proof.Proof.KernelBridge
import proofs.«152450_j37709812859403_2_alg».proof.Proof.RefBridge
import Idealize.ShloMosaic.Adequacy
import Idealize.ShloMosaic.Init

noncomputable section

namespace Cert.Proof

open Idealize.ShloMosaic Idealize.ShloMosaic.TcCoe Idealize.SL.Sem

/-- Both programs end with the layer's array of the (agreeing) arguments in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  haveI : Cert.KernelIdeal.Facts := Cert.KernelIdeal.Gen.facts
  haveI : Cert.ReferenceIdeal.Facts := Cert.ReferenceIdeal.Gen.facts
  refine ⟨_, Cert.KernelIdeal.Bridge.run m ρ hpre, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _ _ _).trans ?_
  refine (Cert.ReferenceIdeal.RefValue.ref_layer _ _ _ _ _ _).trans ?_
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
